-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_arg8 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S50000x64 .f32) (main_arg1 : IVec S2x1600000 32) (main_arg2 : IVec S2x1600000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S50000 : Shape := ⟨1, ![50000]⟩
abbrev S50000x1 : Shape := ⟨2, ![50000, 1]⟩
abbrev S1x64 : Shape := ⟨2, ![1, 64]⟩
abbrev S5000x64 : Shape := ⟨2, ![5000, 64]⟩
abbrev S5000x1 : Shape := ⟨2, ![5000, 1]⟩
abbrev S5000 : Shape := ⟨1, ![5000]⟩

abbrev nBuf : Space → Nat
  | .hbm => 61
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S2x1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S50000x64, .f32⟩
  | .hbm, ⟨24, _⟩ => ⟨S1600000x1, .i32⟩
  | .hbm, ⟨25, _⟩ => ⟨S50000x64, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S50000, .f32⟩
  | .hbm, ⟨30, _⟩ => ⟨S1600000x1, .i32⟩
  | .hbm, ⟨31, _⟩ => ⟨S50000, .f32⟩
  | .hbm, ⟨32, _⟩ => ⟨S50000x1, .f32⟩
  | .hbm, ⟨33, _⟩ => ⟨S1x64, .f32⟩
  | .hbm, ⟨34, _⟩ => ⟨S50000x64, .f32⟩
  | .hbm, ⟨35, _⟩ => ⟨S1x1600000, .i32⟩
  | .hbm, ⟨36, _⟩ => ⟨S1600000, .i32⟩
  | .hbm, ⟨37, _⟩ => ⟨S1x1600000, .i32⟩
  | .hbm, ⟨38, _⟩ => ⟨S1600000, .i32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S50000x64, .f32⟩
  | .hbm, ⟨50, _⟩ => ⟨S1600000x1, .i32⟩
  | .hbm, ⟨51, _⟩ => ⟨S50000x64, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S50000, .f32⟩
  | .hbm, ⟨56, _⟩ => ⟨S1600000x1, .i32⟩
  | .hbm, ⟨57, _⟩ => ⟨S50000, .f32⟩
  | .hbm, ⟨58, _⟩ => ⟨S50000x1, .f32⟩
  | .hbm, ⟨59, _⟩ => ⟨S1x64, .f32⟩
  | .hbm, ⟨60, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  bcast_S_S50000 : S_.BroadcastsInDim S50000 (![] : Fin 0 → Fin S50000.rank)
  shapeCasts_S50000_S50000x1 : S50000.ShapeCasts S50000x1
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S2x1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S50000x64, .f32⟩
  | .hbm, ⟨24, _⟩ => ⟨S1600000x1, .i32⟩
  | .hbm, ⟨25, _⟩ => ⟨S50000x64, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S50000, .f32⟩
  | .hbm, ⟨30, _⟩ => ⟨S1600000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S50000x64, .f32⟩
  | .hbm, ⟨44, _⟩ => ⟨S_, .f32⟩
  | .hbm, ⟨45, _⟩ => ⟨S50000x64, .f32⟩
  | .hbm, ⟨46, _⟩ => ⟨S50000x64, .f32⟩
  | .hbm, ⟨47, _⟩ => ⟨S1x1600000, .i32⟩
  | .hbm, ⟨48, _⟩ => ⟨S1600000, .i32⟩
  | .hbm, ⟨49, _⟩ => ⟨S1x1600000, .i32⟩
  | .hbm, ⟨50, _⟩ => ⟨S1600000, .i32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S50000x64, .f32⟩
  | .hbm, ⟨62, _⟩ => ⟨S1600000x1, .i32⟩
  | .hbm, ⟨63, _⟩ => ⟨S50000x64, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S50000, .f32⟩
  | .hbm, ⟨68, _⟩ => ⟨S1600000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S_, .f32⟩
  | .hbm, ⟨84, _⟩ => ⟨S50000, .f32⟩
  | .hbm, ⟨85, _⟩ => ⟨S50000x1, .f32⟩
  | .hbm, ⟨86, _⟩ => ⟨S50000x1, .f32⟩
  | .hbm, ⟨87, _⟩ => ⟨S_, .f32⟩
  | .hbm, ⟨88, _⟩ => ⟨S50000x1, .f32⟩
  | .hbm, ⟨89, _⟩ => ⟨S50000x1, .f32⟩
  | .hbm, ⟨90, _⟩ => ⟨S50000x64, .f32⟩
  | .hbm, ⟨91, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_v0 : Ref sig .tc := ⟨.hbm, 82, rfl⟩
abbrev main_call1_cst : Ref sig .tc := ⟨.hbm, 83, rfl⟩
abbrev main_call1_v1 : Ref sig .tc := ⟨.hbm, 84, rfl⟩
abbrev main_call1_v2 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S50000x64_S64x64_S50000x64_1_0_0_1_n_n_wf : DotDims.WF S50000x64 S64x64 S50000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel's run with its result NAMED: every weakly fair execution of the whole program — the host
  operations, the first layer's call, the host operations between, the second layer's call — ends with the result array
  holding what the second call's write-backs leave on top of the contents the call was entered with, and with the nine
  argument arrays as launched. Which function of the arguments that is, is read off afterwards, region by region.
-/
import proofs.«136282_j45724221833421_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, its last thread state read at the result array as well as at the arguments: the result
    is the last boundary's contents there. -/
theorem run_named : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Named

end
-- ==== Proof.Spec.lean ====
/-
  The mathematics of the two GraphSAGE layers, with no program in sight.

  One row of a layer's dense part: from a row `a` of summed neighbour features (64 entries), the row's neighbour
  count `d`, the node's own feature row `x`, two 64×64 weight matrices `W`, `R` and a bias row `b`, the entry in
  column `q` is
      (Σ_k (a k / max d 1) · W k q  +  Σ_k x k · R k q)  +  b q
  on the extended reals. The first layer clamps this at zero from below; the second divides the row by
  max (√ Σ_k (row k)², ε), its Euclidean length clamped at ε = the single-precision word 0x2B8CBCCC.
  The three float words (1, 0, ε) are kept as their words: the same word on both sides is never evaluated.
  The only law between the two programs is that a sum of three extended reals may be regrouped:
  (s + t) + b = (s + b) + t — commutativity and associativity of addition, which hold with infinities too.
-/
import Idealize.ShloMosaic.Lib.ValueIdx
import Idealize.ShloMosaic.PureOps.Ideal

noncomputable section

namespace Cert.Sage

open Idealize.ShloMosaic Idealize.ShloMosaic.ValueIdx

/-- The float word of 1. -/
abbrev oneW : EReal := Ideal.ofBits .f32 0x3F800000#32
/-- The float word of 0. -/
abbrev zeroW : EReal := Ideal.ofBits .f32 0x00000000#32
/-- The float word of the clamp ε of the normalisation (the single-precision number nearest 1e-12). -/
abbrev epsW : EReal := Ideal.ofBits .f32 0x2B8CBCCC#32

/-- Column `q` of one row of a layer's dense part: the degree-normalised neighbour sum through `W`, the node's own
    features through `R`, and the bias. -/
def denseRow (a : Fin 64 → EReal) (d : EReal) (x : Fin 64 → EReal) (W R : Fin 64 → Fin 64 → EReal) (b : Fin 64 → EReal)
    (q : Fin 64) : EReal :=
  ((∑ k : Fin 64, Ideal.div (a k) (max d oneW) * W k q) + ∑ k : Fin 64, x k * R k q) + b q

/-- The same with the bias added before the root branch: the grouping of the host program. -/
theorem denseRow_regroup (a : Fin 64 → EReal) (d : EReal) (x : Fin 64 → EReal) (W R : Fin 64 → Fin 64 → EReal)
    (b : Fin 64 → EReal) (q : Fin 64) :
    ((∑ k : Fin 64, Ideal.div (a k) (max d oneW) * W k q) + b q) + ∑ k : Fin 64, x k * R k q = denseRow a d x W R b q := by
  unfold denseRow
  exact add_right_comm _ _ _

/-- The first layer's row: the dense part clamped at zero from below. -/
def reluRow (a : Fin 64 → EReal) (d : EReal) (x : Fin 64 → EReal) (W R : Fin 64 → Fin 64 → EReal) (b : Fin 64 → EReal)
    (q : Fin 64) : EReal :=
  max (denseRow a d x W R b q) zeroW

/-- The second layer's row: the dense part divided by its Euclidean length clamped at ε. -/
def unitRow (a : Fin 64 → EReal) (d : EReal) (x : Fin 64 → EReal) (W R : Fin 64 → Fin 64 → EReal) (b : Fin 64 → EReal)
    (q : Fin 64) : EReal :=
  Ideal.div (denseRow a d x W R b q)
    (max (Ideal.sqrt (∑ k : Fin 64, denseRow a d x W R b k * denseRow a d x W R b k)) epsW)

/-! ## The layers over whole arrays: 50000 nodes, 64 features -/

/-- The first layer over the node arrays: `agg` the summed neighbour features, `deg` the neighbour counts. -/
def hidden (agg : (⟨2, ![50000, 64]⟩ : Shape).Idx → EReal) (deg : (⟨1, ![50000]⟩ : Shape).Idx → EReal)
    (x : (⟨2, ![50000, 64]⟩ : Shape).Idx → EReal) (W R : (⟨2, ![64, 64]⟩ : Shape).Idx → EReal)
    (b : (⟨1, ![64]⟩ : Shape).Idx → EReal) : (⟨2, ![50000, 64]⟩ : Shape).Idx → EReal := fun i =>
  reluRow (fun k => agg (ix2 (n0 := 50000) (i 0) k)) (deg (ix1 (n := 50000) (i 0))) (fun k => x (ix2 (n0 := 50000) (i 0) k))
    (fun k q => W (ix2 k q)) (fun k q => R (ix2 k q)) (fun q => b (ix1 q)) (i 1)

/-- The second layer over the node arrays. -/
def output (agg : (⟨2, ![50000, 64]⟩ : Shape).Idx → EReal) (deg : (⟨1, ![50000]⟩ : Shape).Idx → EReal)
    (x : (⟨2, ![50000, 64]⟩ : Shape).Idx → EReal) (W R : (⟨2, ![64, 64]⟩ : Shape).Idx → EReal)
    (b : (⟨1, ![64]⟩ : Shape).Idx → EReal) : (⟨2, ![50000, 64]⟩ : Shape).Idx → EReal := fun i =>
  unitRow (fun k => agg (ix2 (n0 := 50000) (i 0) k)) (deg (ix1 (n := 50000) (i 0))) (fun k => x (ix2 (n0 := 50000) (i 0) k))
    (fun k q => W (ix2 k q)) (fun k q => R (ix2 k q)) (fun q => b (ix1 q)) (i 1)

/-- The first layer at node p, feature q. -/
theorem hidden_at (agg : (⟨2, ![50000, 64]⟩ : Shape).Idx → EReal) (deg : (⟨1, ![50000]⟩ : Shape).Idx → EReal)
    (x : (⟨2, ![50000, 64]⟩ : Shape).Idx → EReal) (W R : (⟨2, ![64, 64]⟩ : Shape).Idx → EReal)
    (b : (⟨1, ![64]⟩ : Shape).Idx → EReal) (p : Fin 50000) (q : Fin 64) :
    hidden agg deg x W R b (ix2 p q)
      = reluRow (fun k => agg (ix2 p k)) (deg (ix1 p)) (fun k => x (ix2 p k)) (fun k q => W (ix2 k q)) (fun k q => R (ix2 k q))
          (fun q => b (ix1 q)) q := rfl

/-- The second layer at node p, feature q. -/
theorem output_at (agg : (⟨2, ![50000, 64]⟩ : Shape).Idx → EReal) (deg : (⟨1, ![50000]⟩ : Shape).Idx → EReal)
    (x : (⟨2, ![50000, 64]⟩ : Shape).Idx → EReal) (W R : (⟨2, ![64, 64]⟩ : Shape).Idx → EReal)
    (b : (⟨1, ![64]⟩ : Shape).Idx → EReal) (p : Fin 50000) (q : Fin 64) :
    output agg deg x W R b (ix2 p q)
      = unitRow (fun k => agg (ix2 p k)) (deg (ix1 p)) (fun k => x (ix2 p k)) (fun k q => W (ix2 k q)) (fun k q => R (ix2 k q))
          (fun q => b (ix1 q)) q := rfl

/-! ## The same layers with the counts as a one-column matrix and the bias as a one-row matrix

The kernel is handed the neighbour counts recast to 50000 × 1 and the bias recast to 1 × 64. -/

/-- The first layer over the arrays as the kernel's call receives them. -/
def hiddenK (agg : (⟨2, ![50000, 64]⟩ : Shape).Idx → EReal) (degc : (⟨2, ![50000, 1]⟩ : Shape).Idx → EReal)
    (x : (⟨2, ![50000, 64]⟩ : Shape).Idx → EReal) (W : (⟨2, ![64, 64]⟩ : Shape).Idx → EReal)
    (brow : (⟨2, ![1, 64]⟩ : Shape).Idx → EReal) (R : (⟨2, ![64, 64]⟩ : Shape).Idx → EReal) :
    (⟨2, ![50000, 64]⟩ : Shape).Idx → EReal := fun i =>
  reluRow (fun k => agg (ix2 (n0 := 50000) (i 0) k)) (degc (ix2 (n0 := 50000) (i 0) (0 : Fin 1)))
    (fun k => x (ix2 (n0 := 50000) (i 0) k)) (fun k q => W (ix2 k q)) (fun k q => R (ix2 k q))
    (fun q => brow (ix2 (0 : Fin 1) q)) (i 1)

/-- The second layer over the arrays as the kernel's call receives them. -/
def outputK (agg : (⟨2, ![50000, 64]⟩ : Shape).Idx → EReal) (degc : (⟨2, ![50000, 1]⟩ : Shape).Idx → EReal)
    (x : (⟨2, ![50000, 64]⟩ : Shape).Idx → EReal) (W : (⟨2, ![64, 64]⟩ : Shape).Idx → EReal)
    (brow : (⟨2, ![1, 64]⟩ : Shape).Idx → EReal) (R : (⟨2, ![64, 64]⟩ : Shape).Idx → EReal) :
    (⟨2, ![50000, 64]⟩ : Shape).Idx → EReal := fun i =>
  unitRow (fun k => agg (ix2 (n0 := 50000) (i 0) k)) (degc (ix2 (n0 := 50000) (i 0) (0 : Fin 1)))
    (fun k => x (ix2 (n0 := 50000) (i 0) k)) (fun k q => W (ix2 k q)) (fun k q => R (ix2 k q))
    (fun q => brow (ix2 (0 : Fin 1) q)) (i 1)

theorem hiddenK_at (agg : (⟨2, ![50000, 64]⟩ : Shape).Idx → EReal) (degc : (⟨2, ![50000, 1]⟩ : Shape).Idx → EReal)
    (x : (⟨2, ![50000, 64]⟩ : Shape).Idx → EReal) (W : (⟨2, ![64, 64]⟩ : Shape).Idx → EReal)
    (brow : (⟨2, ![1, 64]⟩ : Shape).Idx → EReal) (R : (⟨2, ![64, 64]⟩ : Shape).Idx → EReal) (p : Fin 50000) (q : Fin 64) :
    hiddenK agg degc x W brow R (ix2 p q)
      = reluRow (fun k => agg (ix2 p k)) (degc (ix2 p (0 : Fin 1))) (fun k => x (ix2 p k)) (fun k q => W (ix2 k q))
          (fun k q => R (ix2 k q)) (fun q => brow (ix2 (0 : Fin 1) q)) q := rfl

theorem outputK_at (agg : (⟨2, ![50000, 64]⟩ : Shape).Idx → EReal) (degc : (⟨2, ![50000, 1]⟩ : Shape).Idx → EReal)
    (x : (⟨2, ![50000, 64]⟩ : Shape).Idx → EReal) (W : (⟨2, ![64, 64]⟩ : Shape).Idx → EReal)
    (brow : (⟨2, ![1, 64]⟩ : Shape).Idx → EReal) (R : (⟨2, ![64, 64]⟩ : Shape).Idx → EReal) (p : Fin 50000) (q : Fin 64) :
    outputK agg degc x W brow R (ix2 p q)
      = unitRow (fun k => agg (ix2 p k)) (degc (ix2 p (0 : Fin 1))) (fun k => x (ix2 p k)) (fun k q => W (ix2 k q))
          (fun k q => R (ix2 k q)) (fun q => brow (ix2 (0 : Fin 1) q)) q := rfl

end Cert.Sage

end
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibProductAt.lean ====
/-
  A matrix product read at an index.

  Dimension numbers of a product [A, K] × [K, B] → [A, B] that contract the left factor's axis 1 with the right factor's
  axis 0, with no batch axis, index the two factors at the result index (p, q) and the contraction index k by (p, k) and
  (k, q). So any sum over the contraction index — a product into a zero accumulator, a host dot_general — is the sum
  over k < K of l (p, k) · r (k, q), and in particular reads only row p of the left factor and column q of the right one.
  General: nothing here depends on a particular program. An instance supplies the two kept coordinates (`hl0`, `hr1`:
  each is `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.ProductAt

open Idealize.ShloMosaic

/-- The index (p, q) of a two-axis shape, from the two numbers and their bounds. -/
abbrev at2 {n0 n1 : Nat} (p : Nat) (hp : p < n0) (q : Nat) (hq : q < n1) : (⟨2, ![n0, n1]⟩ : Shape).Idx := fun a => match a with
  | ⟨0, _⟩ => ⟨p, hp⟩
  | ⟨1, _⟩ => ⟨q, hq⟩

/-- Equal coordinates give the same index. -/
theorem at2_congr {n0 n1 : Nat} {p p' q q' : Nat} (hp : p < n0) (hp' : p' < n0) (hq : q < n1) (hq' : q' < n1)
    (ep : p = p') (eq : q = q') : (at2 p hp q hq : (⟨2, ![n0, n1]⟩ : Shape).Idx) = at2 p' hp' q' hq' := by
  subst ep; subst eq; rfl

/-- Every index of a two-axis shape is the index of its two coordinates. -/
theorem eq_at2 {n0 n1 : Nat} (j : (⟨2, ![n0, n1]⟩ : Shape).Idx) :
    j = at2 (j 0).val (ValueIdx.idx2_lt0 j) (j 1).val (ValueIdx.idx2_lt1 j) := by
  funext a; match a with | ⟨0, _⟩ => rfl | ⟨1, _⟩ => rfl

/-- THE SUM, RE-INDEXED. Dimension numbers that contract the left factor's axis 1 with the right factor's axis 0 and
    keep the left factor's axis 0 and the right factor's axis 1 as the result's rows and columns (`hl0`, `hr1`): the sum
    over the contraction index is the sum over k < K of l (p, k) · r (k, q) at the result index (p, q). -/
theorem product_sum_eq {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (j : (⟨2, ![A, B]⟩ : Shape).Idx) :
    ∑ q : d.contr.Idx, l (d.lhsIdx j q) * r (d.rhsIdx j q)
      = ∑ k : Fin K, l (at2 (j 0).val (ValueIdx.idx2_lt0 j) k.val k.isLt) * r (at2 k.val k.isLt (j 1).val (ValueIdx.idx2_lt1 j)) := by
  rw [← Equiv.sum_comp (ValueIdx.contrEquiv1 d K hr hs).symm]
  refine Finset.sum_congr rfl fun k _ => ?_
  have hk := ValueIdx.contrEquiv1_symm_val d K hr hs k
  have el : d.lhsIdx j ((ValueIdx.contrEquiv1 d K hr hs).symm k) = at2 (j 0).val (ValueIdx.idx2_lt0 j) k.val k.isLt :=
    funext fun a => Fin.ext (by
      match a with
      | ⟨0, _⟩ => exact hl0 j _
      | ⟨1, _⟩ => exact (d.lhsIdx_val_of_single hlc j _).trans hk)
  have er : d.rhsIdx j ((ValueIdx.contrEquiv1 d K hr hs).symm k) = at2 k.val k.isLt (j 1).val (ValueIdx.idx2_lt1 j) :=
    funext fun a => Fin.ext (by
      match a with
      | ⟨0, _⟩ => exact (d.rhsIdx_val_of_single hrc j _).trans hk
      | ⟨1, _⟩ => exact hr1 j _)
  rw [el, er]

end Cert.ProductAt

end
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.BlockRow.lean ====
/-
  One block of the kernel body, read at an entry.

  The body of either call works on a block of 5000 nodes: it divides the block of neighbour sums by the block's column
  of neighbour counts clamped at 1, multiplies by W on the matrix unit, adds the product of the block of node features
  with R, adds the bias row. Rounding to bfloat16 before the products is the identity on the extended reals and a
  product into a zero accumulator is the plain sum over the contracted index, so entry (r, q) of the block is the
  specification's dense row of row r of each block. The first call clamps at zero; the second divides by the row's
  Euclidean length clamped at ε, the sum of squares being the lane reduction over the 64 columns.
-/
import proofs.«136282_j45724221833421_2_alg».proof.Proof.Gen.KernelIdeal.Skeleton
import proofs.«136282_j45724221833421_2_alg».proof.Proof.Spec
import proofs.«136282_j45724221833421_2_alg».proof.Proof.LibLayout
import proofs.«136282_j45724221833421_2_alg».proof.Proof.LibProductAt
import proofs.«136282_j45724221833421_2_alg».proof.Proof.LibColumn
import Idealize.ShloMosaic.Lib.Pipeline.Value
import Idealize.ShloMosaic.Lib.ValueLayout
import Idealize.ShloMosaic.PureOps.Ideal.Laws

noncomputable section

namespace Cert.Sage.Block

open Idealize.ShloMosaic Idealize.ShloMosaic.ValueIdx Cert.KernelIdeal Cert.KernelIdeal.Gen Cert.ProductAt

/-- The kept coordinate of the left factor: row p of the product reads row p of the left factor. -/
theorem lhs_row (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The kept coordinate of the right factor: column q of the product reads column q of the right factor. -/
theorem rhs_col (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A block product into a zero accumulator, at entry (r, q): the sum over k of l (r, k) · w (k, q). -/
theorem product_at {φ₁ φ₂ : FTy} (l : FVec Ideal S5000x64 φ₁) (w : FVec Ideal S64x64 φ₂) (r : Fin 5000) (q : Fin 64) :
    matmul dot_S5000x64_S64x64_S5000x64_1_0_0_1_n_n none l w (constant S5000x64 .f32 0x00000000#32) (ix2 r q)
      = ∑ k : Fin 64, l (ix2 r k) * w (ix2 k q) := by
  refine (Ideal.matmul_constant_zero_apply dot_S5000x64_S64x64_S5000x64_1_0_0_1_n_n none l w (ix2 r q)).trans ?_
  refine (product_sum_eq dot_S5000x64_S64x64_S5000x64_1_0_0_1_n_n rfl rfl rfl rfl lhs_row rhs_col l w (ix2 r q)).trans ?_
  refine Finset.sum_congr rfl fun k _ => ?_
  have el : (at2 ((ix2 r q : S5000x64.Idx) 0).val (idx2_lt0 (ix2 r q)) k.val k.isLt : S5000x64.Idx) = ix2 r k :=
    funext fun a => by match a with | ⟨0, _⟩ => rfl | ⟨1, _⟩ => rfl
  have er : (at2 k.val k.isLt ((ix2 r q : S5000x64.Idx) 1).val (idx2_lt1 (ix2 r q)) : S64x64.Idx) = ix2 k q :=
    funext fun a => by match a with | ⟨0, _⟩ => rfl | ⟨1, _⟩ => rfl
  rw [el, er]

/-- The block of neighbour sums divided by the clamped count column, at entry (r, k). -/
theorem mean_at (v0 : Vec Ideal S5000x1 .f32) (v4 : Vec Ideal S5000x64 .f32) (h1 : S5000x64.ShapeCasts S5000x64)
    (h2 : S5000x1.ShapeCasts S5000x1) (h3 : S5000x1.Broadcasts S5000x64) (r : Fin 5000) (k : Fin 64) :
    divf (shapeCast S5000x64 v4 h1)
        (broadcastTo S5000x64 (maximumf (shapeCast S5000x1 v0 h2) (broadcast S5000x1 (Scalar.ofBits (F := Ideal) .f32 0x3F800000#32))) h3)
        (ix2 r k)
      = Ideal.div (v4 (ix2 r k)) (max (v0 (ix2 r (0 : Fin 1))) Cert.Sage.oneW) := by
  rw [divf_apply, shapeCast_self, broadcastTo_a1_ab_apply, maximumf_apply, shapeCast_self, broadcast_apply]
  rfl

/-- The bias row broadcast over the block, at entry (r, q). -/
theorem bias_at (v15 : Vec Ideal S1x64 .f32) (h1 : S1x64.ShapeCasts S1x64) (h2 : S1x64.Broadcasts S5000x64) (r : Fin 5000)
    (q : Fin 64) : broadcastTo S5000x64 (shapeCast S1x64 v15 h1) h2 (ix2 r q) = v15 (ix2 (0 : Fin 1) q) := by
  rw [broadcastTo_1b_ab_apply, shapeCast_self]

/-- THE FIRST CALL'S BODY at entry (r, q) of its block: the specification's clamped dense row of row r of the blocks. -/
theorem pay0_at (v0 : Vec Ideal S5000x1 .f32) (v4 v9 : Vec Ideal S5000x64 .f32) (v11 v13 : Vec Ideal S64x64 .f32)
    (v15 : Vec Ideal S1x64 .f32) (r : Fin 5000) (q : Fin 64) :
    k0_pay1 v0 v4 v9 v11 v13 v15 (ix2 r q)
      = reluRow (fun k => v4 (ix2 r k)) (v0 (ix2 r (0 : Fin 1))) (fun k => v9 (ix2 r k)) (fun k q => v11 (ix2 k q))
          (fun k q => v13 (ix2 k q)) (fun q => v15 (ix2 (0 : Fin 1) q)) q := by
  unfold k0_pay1 reluRow denseRow
  refine congrArg₂ max (congrArg₂ (· + ·) (congrArg₂ (· + ·) ?_ ?_) ?_) rfl
  · refine (product_at _ _ r q).trans (Finset.sum_congr rfl fun k _ => congrArg₂ (· * ·) ?_ rfl)
    exact mean_at v0 v4 _ _ _ r k
  · exact product_at _ _ r q
  · exact bias_at v15 _ _ r q

/-- The dense part of a block — both products, their sum, the bias row — at entry (r, q): the specification's dense row
    of row r of the blocks. The node-feature block may pass through an identity recast first. -/
theorem dense_at (v0 : Vec Ideal S5000x1 .f32) (v4 v9 : Vec Ideal S5000x64 .f32) (w rr : Vec Ideal S64x64 .f32)
    (b : Vec Ideal S1x64 .f32) (h1 : S5000x64.ShapeCasts S5000x64) (h2 : S5000x1.ShapeCasts S5000x1)
    (h3 : S5000x1.Broadcasts S5000x64) (h4 : S1x64.ShapeCasts S1x64) (h5 : S1x64.Broadcasts S5000x64)
    (hb : FTy.bf16.bits < FTy.f32.bits) (r : Fin 5000) (q : Fin 64) :
    addf (addf
          (matmul dot_S5000x64_S64x64_S5000x64_1_0_0_1_n_n none
            (truncf .bf16 (divf (shapeCast S5000x64 v4 h1)
              (broadcastTo S5000x64 (maximumf (shapeCast S5000x1 v0 h2)
                (broadcast S5000x1 (Scalar.ofBits (F := Ideal) .f32 0x3F800000#32))) h3)) hb)
            (truncf .bf16 w hb) (constant S5000x64 .f32 0x00000000#32))
          (matmul dot_S5000x64_S64x64_S5000x64_1_0_0_1_n_n none (truncf .bf16 (shapeCast S5000x64 v9 h1) hb)
            (truncf .bf16 rr hb) (constant S5000x64 .f32 0x00000000#32)))
        (broadcastTo S5000x64 (shapeCast S1x64 b h4) h5) (ix2 r q)
      = denseRow (fun k => v4 (ix2 r k)) (v0 (ix2 r (0 : Fin 1))) (fun k => v9 (ix2 r k)) (fun k q => w (ix2 k q))
          (fun k q => rr (ix2 k q)) (fun q => b (ix2 (0 : Fin 1) q)) q := by
  unfold denseRow
  refine congrArg₂ (· + ·) (congrArg₂ (· + ·) ?_ ?_) ?_
  · refine (product_at _ _ r q).trans (Finset.sum_congr rfl fun k _ => congrArg₂ (· * ·) ?_ rfl)
    exact mean_at v0 v4 _ _ _ r k
  · refine (product_at _ _ r q).trans (Finset.sum_congr rfl fun k _ => congrArg₂ (· * ·) ?_ rfl)
    exact congrFun (shapeCast_self v9 h1) (ix2 r k)
  · exact bias_at b _ _ r q

/-- A lane sum over the 64 columns of a block, at row r: the sum over k of the entries (r, k). -/
theorem rowsum_at (src : FVec Ideal S5000x64 .f32) (h : S5000x64.Reduces [1] S5000) (hφ : FKind.Formats FTy.f32)
    (hacc : (0x00000000#32 : BitVec 32) = 0x00000000#32) (r : Fin 5000) :
    multiReduction .add [1] S5000 src 0x00000000#32 h hφ hacc (ix1 r) = ∑ k : Fin 64, src (ix2 r k) := by
  refine (Ideal.multiReduction_add_single src 0x00000000#32 h hφ hacc (ix1 r)).trans ?_
  exact Finset.sum_congr rfl fun k _ => congrArg src (funext fun a => Fin.ext (by
    match a with
    | ⟨0, _⟩ => rfl
    | ⟨1, _⟩ => rfl))

/-- THE SECOND CALL'S BODY at entry (r, q) of its block: the specification's normalised dense row of row r of the blocks. -/
theorem pay1_at (v0 : Vec Ideal S5000x1 .f32) (v4 v9 : Vec Ideal S5000x64 .f32) (v12 v14 : Vec Ideal S64x64 .f32)
    (v16 : Vec Ideal S1x64 .f32) (r : Fin 5000) (q : Fin 64) :
    k1_pay1 v0 v4 v9 v12 v14 v16 (ix2 r q)
      = unitRow (fun k => v4 (ix2 r k)) (v0 (ix2 r (0 : Fin 1))) (fun k => v9 (ix2 r k)) (fun k q => v12 (ix2 k q))
          (fun k q => v14 (ix2 k q)) (fun q => v16 (ix2 (0 : Fin 1) q)) q := by
  unfold k1_pay1 unitRow
  refine congrArg₂ Ideal.div (dense_at v0 v4 v9 v12 v14 v16 _ _ _ _ _ _ r q) ?_
  refine (broadcastTo_a1_ab_apply _ _ r q).trans ?_
  refine congrArg₂ max (congrArg Ideal.sqrt ?_) rfl
  refine (shapeCast_a_a1_apply _ _ r 0).trans ?_
  refine (rowsum_at _ _ _ _ r).trans (Finset.sum_congr rfl fun k _ => ?_)
  exact congrArg₂ (· * ·) (dense_at v0 v4 v9 v12 v14 v16 _ _ _ _ _ _ r k) (dense_at v0 v4 v9 v12 v14 v16 _ _ _ _ _ _ r k)

end Cert.Sage.Block

end
-- ==== Proof.Region0.lean ====
/-
  The first call's result array, as one function of the arrays the call is entered with.

  The call runs the body at 10 grid points; point t is handed rows 5000·t … 5000·t + 4999 of the three node arrays (the
  neighbour sums, the count column, the node features), the two weight matrices and the bias row whole, and writes its
  5000 × 64 result back to the same rows of the result array. Every entry of the body's result depends only on its own
  row of the blocks, so what point t writes back is rows 5000·t … of ONE whole-array function, and the ten blocks cover
  the array: row p is written by point p / 5000.
-/
import proofs.«136282_j45724221833421_2_alg».proof.Proof.Gen.KernelIdeal.Frame
import proofs.«136282_j45724221833421_2_alg».proof.Proof.BlockRow

set_option maxRecDepth 16384

noncomputable section

namespace Cert.Sage.Region0

open Idealize.ShloMosaic Idealize.ShloMosaic.TcCoe Idealize.ShloMosaic.ValueIdx Idealize.SL.Sem
open Cert.KernelIdeal Cert.KernelIdeal.Gen Cert.Sage.Block
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three node windows and the result window are at block row t, block column
    0; the weight matrices and the bias row are whole at every point. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The node that row r of point t's blocks belongs to. -/
def node (t : Fin cfg0.N) (r : Fin 5000) : Fin 50000 :=
  ⟨t.val * 5000 + r.val, by have ht : t.val < grid0.N := t.isLt; have hN : grid0.N = 10 := N_0; have hr := r.isLt; omega⟩

/-- Row r of point t's block of the neighbour sums is node (t, r)'s row of the array. -/
theorem read_sums (c : Dev nD) (t : Fin cfg0.N) (r : Fin 5000) (k : Fin 64) :
    iblk0 V c 0 t (ix2 r k) = (V c main_v13 : S50000x64.Idx → EReal) (ix2 (node t r) k) := by
  show (V c main_v13 : S50000x64.Idx → EReal) (((cfg0.win 0).blk t).view.emb (ix2 r k)) = _
  refine congrArg (V c main_v13 : S50000x64.Idx → EReal) (funext fun a => Fin.ext ?_)
  obtain ⟨e0, e1, -⟩ := idx_facts t
  match a with
  | ⟨0, _⟩ => show win0_0.index t (0 : Fin 2) * 5000 + 1 * r.val = t.val * 5000 + r.val; omega
  | ⟨1, _⟩ => show win0_0.index t (1 : Fin 2) * 64 + 1 * k.val = k.val; omega

/-- Row r of point t's block of the count column is node (t, r)'s count. -/
theorem read_count (c : Dev nD) (t : Fin cfg0.N) (r : Fin 5000) :
    iblk0 V c 1 t (ix2 r (0 : Fin 1)) = (V c main_v18 : S50000x1.Idx → EReal) (ix2 (node t r) (0 : Fin 1)) := by
  show (V c main_v18 : S50000x1.Idx → EReal) (((cfg0.win 1).blk t).view.emb (ix2 r (0 : Fin 1))) = _
  refine congrArg (V c main_v18 : S50000x1.Idx → EReal) (funext fun a => Fin.ext ?_)
  obtain ⟨-, -, e0, e1, -⟩ := idx_facts t
  match a with
  | ⟨0, _⟩ => show win0_1.index t (0 : Fin 2) * 5000 + 1 * r.val = t.val * 5000 + r.val; omega
  | ⟨1, _⟩ => show win0_1.index t (1 : Fin 2) * 1 + 1 * 0 = 0; omega

/-- Row r of point t's block of the node features is node (t, r)'s row of the array. -/
theorem read_feat (c : Dev nD) (t : Fin cfg0.N) (r : Fin 5000) (k : Fin 64) :
    iblk0 V c 2 t (ix2 r k) = (V c main_arg0 : S50000x64.Idx → EReal) (ix2 (node t r) k) := by
  show (V c main_arg0 : S50000x64.Idx → EReal) (((cfg0.win 2).blk t).view.emb (ix2 r k)) = _
  refine congrArg (V c main_arg0 : S50000x64.Idx → EReal) (funext fun a => Fin.ext ?_)
  obtain ⟨-, -, -, -, e0, e1, -⟩ := idx_facts t
  match a with
  | ⟨0, _⟩ => show win0_2.index t (0 : Fin 2) * 5000 + 1 * r.val = t.val * 5000 + r.val; omega
  | ⟨1, _⟩ => show win0_2.index t (1 : Fin 2) * 64 + 1 * k.val = k.val; omega

/-- The neighbour-branch weights are handed over whole at every point. -/
theorem read_w (c : Dev nD) (t : Fin cfg0.N) (k q : Fin 64) :
    iblk0 V c 3 t (ix2 k q) = (V c main_arg3 : S64x64.Idx → EReal) (ix2 k q) := by
  show (V c main_arg3 : S64x64.Idx → EReal) (((cfg0.win 3).blk t).view.emb (ix2 k q)) = _
  refine congrArg (V c main_arg3 : S64x64.Idx → EReal) (funext fun a => Fin.ext ?_)
  obtain ⟨-, -, -, -, -, -, e0, e1, -⟩ := idx_facts t
  match a with
  | ⟨0, _⟩ => show win0_3.index t (0 : Fin 2) * 64 + 1 * k.val = k.val; omega
  | ⟨1, _⟩ => show win0_3.index t (1 : Fin 2) * 64 + 1 * q.val = q.val; omega

/-- The bias row is handed over whole at every point. -/
theorem read_bias (c : Dev nD) (t : Fin cfg0.N) (q : Fin 64) :
    iblk0 V c 4 t (ix2 (0 : Fin 1) q) = (V c main_v19 : S1x64.Idx → EReal) (ix2 (0 : Fin 1) q) := by
  show (V c main_v19 : S1x64.Idx → EReal) (((cfg0.win 4).blk t).view.emb (ix2 (0 : Fin 1) q)) = _
  refine congrArg (V c main_v19 : S1x64.Idx → EReal) (funext fun a => Fin.ext ?_)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 64 + 1 * q.val = q.val; omega

/-- The root-branch weights are handed over whole at every point. -/
theorem read_r (c : Dev nD) (t : Fin cfg0.N) (k q : Fin 64) :
    iblk0 V c 5 t (ix2 k q) = (V c main_arg5 : S64x64.Idx → EReal) (ix2 k q) := by
  show (V c main_arg5 : S64x64.Idx → EReal) (((cfg0.win 5).blk t).view.emb (ix2 k q)) = _
  refine congrArg (V c main_arg5 : S64x64.Idx → EReal) (funext fun a => Fin.ext ?_)
  obtain ⟨-, -, -, -, -, -, -, -, -, -, e0, e1, -⟩ := idx_facts t
  match a with
  | ⟨0, _⟩ => show win0_5.index t (0 : Fin 2) * 64 + 1 * k.val = k.val; omega
  | ⟨1, _⟩ => show win0_5.index t (1 : Fin 2) * 64 + 1 * q.val = q.val; omega

/-- Entry (r, q) of point t's result block sits at node (t, r), feature q of the result array. -/
theorem emb_out (t : Fin cfg0.N) (r : Fin 5000) (q : Fin 64) :
    ((cfg0.win 6).blk t).view.emb (ix2 r q) = (ix2 (node t r) q : S50000x64.Idx) := by
  refine funext fun a => Fin.ext ?_
  obtain ⟨-, -, -, -, -, -, -, -, -, -, -, -, e0, e1⟩ := idx_facts t
  match a with
  | ⟨0, _⟩ => show win0_6.index t (0 : Fin 2) * 5000 + 1 * r.val = t.val * 5000 + r.val; omega
  | ⟨1, _⟩ => show win0_6.index t (1 : Fin 2) * 64 + 1 * q.val = q.val; omega

/-- The whole-array function: the first layer of the arrays the call is entered with. -/
abbrev G (c : Dev nD) : S50000x64.Idx → EReal :=
  hiddenK (V c main_v13) (V c main_v18) (V c main_arg0) (V c main_arg3) (V c main_v19) (V c main_arg5)

/-- WHAT POINT t WRITES BACK is its rows of the whole-array function. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S5000x1) hz, View.ld_unit_zero (S := S64x64) hz,
    View.ld_unit_zero (S := S1x64) hz]
  funext j
  obtain ⟨r, q, rfl⟩ : ∃ (r : Fin 5000) (q : Fin 64), j = ix2 r q := ⟨j 0, j 1, eq_ix2 j⟩
  show k0_pay1 (iblk0 V c 1 t) (iblk0 V c 0 t) (iblk0 V c 2 t) (iblk0 V c 3 t) (iblk0 V c 5 t) (iblk0 V c 4 t) (ix2 r q)
    = G V c (((cfg0.win 6).blk t).view.emb (ix2 r q))
  rw [emb_out]
  unfold G
  rw [hiddenK_at]
  refine (pay0_at (iblk0 V c 1 t) (iblk0 V c 0 t) (iblk0 V c 2 t) (iblk0 V c 3 t) (iblk0 V c 5 t) (iblk0 V c 4 t) r q).trans ?_
  simp only [read_sums, read_count, read_feat, read_w, read_bias, read_r]

/-- An index of the array is in point t's block iff each coordinate is in the block's range on its axis. -/
theorem mem_blk (t : Fin cfg0.N) (i : S50000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v20).slice (win0_6.rect t)).set ↔ _
  rw [View.set_slice_whole, Rect.mem_set_unit]
  exact Iff.rfl

/-- THE RESULT ARRAY after the call: the first layer of the arrays the call is entered with. -/
theorem final (c : Dev nD) : (dat0 V c).arrAt 6 cfg0.N = G V c :=
  (dat0 V c).arrAt_eq_of_cover 6 (G V c) (fun t _ => flushed_eq V c t) fun i => by
    have hi0 : (i 0).val < 50000 := (i 0).isLt
    have hi1 : (i 1).val < 64 := (i 1).isLt
    have hN : grid0.N = 10 := N_0
    refine ⟨⟨(i 0).val / 5000, by show (i 0).val / 5000 < grid0.N; omega⟩, flush0_6 _, ?_⟩
    rw [mem_blk]
    obtain ⟨-, -, -, -, -, -, -, -, -, -, -, -, e0, e1⟩ := idx_facts ⟨(i 0).val / 5000, by show (i 0).val / 5000 < grid0.N; omega⟩
    intro a
    match a with
    | ⟨0, _⟩ =>
      show win0_6.index _ (0 : Fin 2) * 5000 ≤ (i 0).val ∧ (i 0).val < win0_6.index _ (0 : Fin 2) * 5000 + 5000
      rw [e0]; show (i 0).val / 5000 * 5000 ≤ (i 0).val ∧ (i 0).val < (i 0).val / 5000 * 5000 + 5000; omega
    | ⟨1, _⟩ =>
      show win0_6.index _ (1 : Fin 2) * 64 ≤ (i 1).val ∧ (i 1).val < win0_6.index _ (1 : Fin 2) * 64 + 64
      rw [e1]; omega

end Cert.Sage.Region0

end
-- ==== Proof.Region1.lean ====
/-
  The second call's result array, as one function of the arrays the call is entered with.

  The call runs the body at 10 grid points; point t is handed rows 5000·t … 5000·t + 4999 of the three node arrays (the
  neighbour sums, the count column, the node features), the two weight matrices and the bias row whole, and writes its
  5000 × 64 result back to the same rows of the result array. Every entry of the body's result depends only on its own
  row of the blocks, so what point t writes back is rows 5000·t … of ONE whole-array function, and the ten blocks cover
  the array: row p is written by point p / 5000.
-/
import proofs.«136282_j45724221833421_2_alg».proof.Proof.Gen.KernelIdeal.Frame
import proofs.«136282_j45724221833421_2_alg».proof.Proof.BlockRow

set_option maxRecDepth 16384

noncomputable section

namespace Cert.Sage.Region1

open Idealize.ShloMosaic Idealize.ShloMosaic.TcCoe Idealize.ShloMosaic.ValueIdx Idealize.SL.Sem
open Cert.KernelIdeal Cert.KernelIdeal.Gen Cert.Sage.Block
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three node windows and the result window are at block row t, block column
    0; the weight matrices and the bias row are whole at every point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The node that row r of point t's blocks belongs to. -/
def node (t : Fin cfg1.N) (r : Fin 5000) : Fin 50000 :=
  ⟨t.val * 5000 + r.val, by have ht : t.val < grid1.N := t.isLt; have hN : grid1.N = 10 := N_1; have hr := r.isLt; omega⟩

/-- Row r of point t's block of the neighbour sums is node (t, r)'s row of the array. -/
theorem read_sums (c : Dev nD) (t : Fin cfg1.N) (r : Fin 5000) (k : Fin 64) :
    iblk1 V c 0 t (ix2 r k) = (V c main_v34 : S50000x64.Idx → EReal) (ix2 (node t r) k) := by
  show (V c main_v34 : S50000x64.Idx → EReal) (((cfg1.win 0).blk t).view.emb (ix2 r k)) = _
  refine congrArg (V c main_v34 : S50000x64.Idx → EReal) (funext fun a => Fin.ext ?_)
  obtain ⟨e0, e1, -⟩ := idx_facts t
  match a with
  | ⟨0, _⟩ => show win1_0.index t (0 : Fin 2) * 5000 + 1 * r.val = t.val * 5000 + r.val; omega
  | ⟨1, _⟩ => show win1_0.index t (1 : Fin 2) * 64 + 1 * k.val = k.val; omega

/-- Row r of point t's block of the count column is node (t, r)'s count. -/
theorem read_count (c : Dev nD) (t : Fin cfg1.N) (r : Fin 5000) :
    iblk1 V c 1 t (ix2 r (0 : Fin 1)) = (V c main_v39 : S50000x1.Idx → EReal) (ix2 (node t r) (0 : Fin 1)) := by
  show (V c main_v39 : S50000x1.Idx → EReal) (((cfg1.win 1).blk t).view.emb (ix2 r (0 : Fin 1))) = _
  refine congrArg (V c main_v39 : S50000x1.Idx → EReal) (funext fun a => Fin.ext ?_)
  obtain ⟨-, -, e0, e1, -⟩ := idx_facts t
  match a with
  | ⟨0, _⟩ => show win1_1.index t (0 : Fin 2) * 5000 + 1 * r.val = t.val * 5000 + r.val; omega
  | ⟨1, _⟩ => show win1_1.index t (1 : Fin 2) * 1 + 1 * 0 = 0; omega

/-- Row r of point t's block of the node features is node (t, r)'s row of the array. -/
theorem read_feat (c : Dev nD) (t : Fin cfg1.N) (r : Fin 5000) (k : Fin 64) :
    iblk1 V c 2 t (ix2 r k) = (V c main_v20 : S50000x64.Idx → EReal) (ix2 (node t r) k) := by
  show (V c main_v20 : S50000x64.Idx → EReal) (((cfg1.win 2).blk t).view.emb (ix2 r k)) = _
  refine congrArg (V c main_v20 : S50000x64.Idx → EReal) (funext fun a => Fin.ext ?_)
  obtain ⟨-, -, -, -, e0, e1, -⟩ := idx_facts t
  match a with
  | ⟨0, _⟩ => show win1_2.index t (0 : Fin 2) * 5000 + 1 * r.val = t.val * 5000 + r.val; omega
  | ⟨1, _⟩ => show win1_2.index t (1 : Fin 2) * 64 + 1 * k.val = k.val; omega

/-- The neighbour-branch weights are handed over whole at every point. -/
theorem read_w (c : Dev nD) (t : Fin cfg1.N) (k q : Fin 64) :
    iblk1 V c 3 t (ix2 k q) = (V c main_arg6 : S64x64.Idx → EReal) (ix2 k q) := by
  show (V c main_arg6 : S64x64.Idx → EReal) (((cfg1.win 3).blk t).view.emb (ix2 k q)) = _
  refine congrArg (V c main_arg6 : S64x64.Idx → EReal) (funext fun a => Fin.ext ?_)
  obtain ⟨-, -, -, -, -, -, e0, e1, -⟩ := idx_facts t
  match a with
  | ⟨0, _⟩ => show win1_3.index t (0 : Fin 2) * 64 + 1 * k.val = k.val; omega
  | ⟨1, _⟩ => show win1_3.index t (1 : Fin 2) * 64 + 1 * q.val = q.val; omega

/-- The bias row is handed over whole at every point. -/
theorem read_bias (c : Dev nD) (t : Fin cfg1.N) (q : Fin 64) :
    iblk1 V c 4 t (ix2 (0 : Fin 1) q) = (V c main_v40 : S1x64.Idx → EReal) (ix2 (0 : Fin 1) q) := by
  show (V c main_v40 : S1x64.Idx → EReal) (((cfg1.win 4).blk t).view.emb (ix2 (0 : Fin 1) q)) = _
  refine congrArg (V c main_v40 : S1x64.Idx → EReal) (funext fun a => Fin.ext ?_)
  obtain ⟨-, -, -, -, -, -, -, -, e0, e1, -⟩ := idx_facts t
  match a with
  | ⟨0, _⟩ => show win1_4.index t (0 : Fin 2) * 1 + 1 * 0 = 0; omega
  | ⟨1, _⟩ => show win1_4.index t (1 : Fin 2) * 64 + 1 * q.val = q.val; omega

/-- The root-branch weights are handed over whole at every point. -/
theorem read_r (c : Dev nD) (t : Fin cfg1.N) (k q : Fin 64) :
    iblk1 V c 5 t (ix2 k q) = (V c main_arg8 : S64x64.Idx → EReal) (ix2 k q) := by
  show (V c main_arg8 : S64x64.Idx → EReal) (((cfg1.win 5).blk t).view.emb (ix2 k q)) = _
  refine congrArg (V c main_arg8 : S64x64.Idx → EReal) (funext fun a => Fin.ext ?_)
  obtain ⟨-, -, -, -, -, -, -, -, -, -, e0, e1, -⟩ := idx_facts t
  match a with
  | ⟨0, _⟩ => show win1_5.index t (0 : Fin 2) * 64 + 1 * k.val = k.val; omega
  | ⟨1, _⟩ => show win1_5.index t (1 : Fin 2) * 64 + 1 * q.val = q.val; omega

/-- Entry (r, q) of point t's result block sits at node (t, r), feature q of the result array. -/
theorem emb_out (t : Fin cfg1.N) (r : Fin 5000) (q : Fin 64) :
    ((cfg1.win 6).blk t).view.emb (ix2 r q) = (ix2 (node t r) q : S50000x64.Idx) := by
  refine funext fun a => Fin.ext ?_
  obtain ⟨-, -, -, -, -, -, -, -, -, -, -, -, e0, e1⟩ := idx_facts t
  match a with
  | ⟨0, _⟩ => show win1_6.index t (0 : Fin 2) * 5000 + 1 * r.val = t.val * 5000 + r.val; omega
  | ⟨1, _⟩ => show win1_6.index t (1 : Fin 2) * 64 + 1 * q.val = q.val; omega

/-- The whole-array function: the second layer of the arrays the call is entered with. -/
abbrev G (c : Dev nD) : S50000x64.Idx → EReal :=
  outputK (V c main_v34) (V c main_v39) (V c main_v20) (V c main_arg6) (V c main_v40) (V c main_arg8)

/-- WHAT POINT t WRITES BACK is its rows of the whole-array function. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S64x64) hz,
    View.ld_unit_zero (S := S1x64) hz]
  funext j
  obtain ⟨r, q, rfl⟩ : ∃ (r : Fin 5000) (q : Fin 64), j = ix2 r q := ⟨j 0, j 1, eq_ix2 j⟩
  show k1_pay1 (iblk1 V c 1 t) (iblk1 V c 0 t) (iblk1 V c 2 t) (iblk1 V c 3 t) (iblk1 V c 5 t) (iblk1 V c 4 t) (ix2 r q)
    = G V c (((cfg1.win 6).blk t).view.emb (ix2 r q))
  rw [emb_out]
  unfold G
  rw [outputK_at]
  refine (pay1_at (iblk1 V c 1 t) (iblk1 V c 0 t) (iblk1 V c 2 t) (iblk1 V c 3 t) (iblk1 V c 5 t) (iblk1 V c 4 t) r q).trans ?_
  simp only [read_sums, read_count, read_feat, read_w, read_bias, read_r]

/-- An index of the array is in point t's block iff each coordinate is in the block's range on its axis. -/
theorem mem_blk (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v41).slice (win1_6.rect t)).set ↔ _
  rw [View.set_slice_whole, Rect.mem_set_unit]
  exact Iff.rfl

/-- THE RESULT ARRAY after the call: the second layer of the arrays the call is entered with. -/
theorem final (c : Dev nD) : (dat1 V c).arrAt 6 cfg1.N = G V c :=
  (dat1 V c).arrAt_eq_of_cover 6 (G V c) (fun t _ => flushed_eq V c t) fun i => by
    have hi0 : (i 0).val < 50000 := (i 0).isLt
    have hi1 : (i 1).val < 64 := (i 1).isLt
    have hN : grid1.N = 10 := N_1
    refine ⟨⟨(i 0).val / 5000, by show (i 0).val / 5000 < grid1.N; omega⟩, flush1_6 _, ?_⟩
    rw [mem_blk]
    obtain ⟨-, -, -, -, -, -, -, -, -, -, -, -, e0, e1⟩ := idx_facts ⟨(i 0).val / 5000, by show (i 0).val / 5000 < grid1.N; omega⟩
    intro a
    match a with
    | ⟨0, _⟩ =>
      show win1_6.index _ (0 : Fin 2) * 5000 ≤ (i 0).val ∧ (i 0).val < win1_6.index _ (0 : Fin 2) * 5000 + 5000
      rw [e0]; show (i 0).val / 5000 * 5000 ≤ (i 0).val ∧ (i 0).val < (i 0).val / 5000 * 5000 + 5000; omega
    | ⟨1, _⟩ =>
      show win1_6.index _ (1 : Fin 2) * 64 ≤ (i 1).val ∧ (i 1).val < win1_6.index _ (1 : Fin 2) * 64 + 64
      rw [e1]; omega

end Cert.Sage.Region1

end
-- ==== Proof.RefValue.lean ====
/-
  The host program, stage by stage, is the two layers of the specification.

  Its first 30 operations are one layer over (x, first edge list): the neighbour sums (a gather of rows of x at the
  source nodes scattered-and-added at the target nodes), the neighbour counts (ones scattered-and-added), then the
  dense part with the bias added before the root branch, clamped at zero. The next operations are the same over
  (hidden features, second edge list), without the clamp, followed by the row normalisation. The gathers and scatters
  are never opened: both programs apply the same ones to the same operands.
-/
import proofs.«136282_j45724221833421_2_alg».proof.Proof.Gen.ReferenceIdeal.Read
import proofs.«136282_j45724221833421_2_alg».proof.Proof.Spec

noncomputable section

namespace Cert.Sage.Ref

open Idealize.ShloMosaic Idealize.ShloMosaic.ValueIdx Cert.ReferenceIdeal Cert.ReferenceIdeal.Read

/-- The neighbour sums of a feature array along an edge list: rows gathered at the source nodes (a negative index counted
    from the end), added into the target nodes' rows of a zero array. -/
abbrev neighbourSum (h : S50000x64.Idx → EReal) (e : S2x1600000.Idx → BitVec 32) : S50000x64.Idx → EReal :=
  val_main_v13 (F := Ideal) h e

/-- The neighbour counts along an edge list: a one per edge added at its target node. -/
abbrev neighbourCount (e : S2x1600000.Idx → BitVec 32) : S50000.Idx → EReal := val_main_v17 (F := Ideal) e

/-- The host's first layer — the mean of the gathered rows through W1, the bias, the root branch through R1, clamped at
    zero — is the specification's first layer of the same neighbour sums and counts. -/
theorem hidden_eq (x0 : S50000x64.Idx → EReal) (x1 : S2x1600000.Idx → BitVec 32) (x3 : S64x64.Idx → EReal) (x4 : S64.Idx → EReal)
    (x5 : S64x64.Idx → EReal) :
    val_main_v29 (F := Ideal) x0 x1 x3 x4 x5 = hidden (neighbourSum x0 x1) (neighbourCount x1) x0 x3 x5 x4 := by
  funext i
  rw [val_main_v29_apply, val_main_v28_apply, val_main_v26_apply, val_main_v23_apply, val_main_v27_apply, val_main_v25_apply,
    val_main_v24_apply, val_main_call0_v0_apply, val_main_call0_cst_apply]
  unfold hidden reluRow
  refine Eq.trans ?_ (congrArg (fun z => max z zeroW) (denseRow_regroup _ _ _ _ _ _ _))
  refine congrArg₂ max (congrArg₂ (· + ·) (congrArg₂ (· + ·) (Finset.sum_congr rfl fun k _ => ?_) ?_)
    (Finset.sum_congr rfl fun k _ => ?_)) rfl
  · have e1 : lidx_main_v23 i k = ix2 (n0 := 50000) (i 0) k := funext fun a => by match a with | ⟨0, _⟩ => rfl | ⟨1, _⟩ => rfl
    have e2 : ridx_main_v23 i k = ix2 k (i 1) := funext fun a => by match a with | ⟨0, _⟩ => rfl | ⟨1, _⟩ => rfl
    have e3 : idx_main_v20 (idx_main_v21 (ix2 (n0 := 50000) (i 0) k)) = ix1 (n := 50000) (i 0) :=
      funext fun a => by match a with | ⟨0, _⟩ => rfl
    rw [e1, e2, val_main_v22_apply, val_main_v21_apply, val_main_v20_apply, val_main_v19_apply, val_main_v18_apply,
      val_main_cst_3_apply, e3]
    rfl
  · exact congrArg x4 (funext fun a => by match a with | ⟨0, _⟩ => rfl)
  · have e1 : lidx_main_v27 i k = ix2 (n0 := 50000) (i 0) k := funext fun a => by match a with | ⟨0, _⟩ => rfl | ⟨1, _⟩ => rfl
    have e2 : ridx_main_v27 i k = ix2 k (i 1) := funext fun a => by match a with | ⟨0, _⟩ => rfl | ⟨1, _⟩ => rfl
    rw [e1, e2]
    rfl

/-- The second layer's neighbour sums are the same gather and scatter as the first layer's, of the hidden features along
    the second edge list. -/
theorem sums2_eq (x0 : S50000x64.Idx → EReal) (x1 x2 : S2x1600000.Idx → BitVec 32) (x3 : S64x64.Idx → EReal) (x4 : S64.Idx → EReal)
    (x5 : S64x64.Idx → EReal) :
    val_main_v43 (F := Ideal) x0 x1 x2 x3 x4 x5 = neighbourSum (val_main_v29 (F := Ideal) x0 x1 x3 x4 x5) x2 := rfl

/-- The second layer's neighbour counts are the first layer's along the second edge list. -/
theorem counts2_eq (x2 : S2x1600000.Idx → BitVec 32) : val_main_v47 (F := Ideal) x2 = neighbourCount x2 := rfl

/-- The host's second dense part at an entry, bias before the root branch: the specification's dense row. -/
theorem dense2_at (x0 : S50000x64.Idx → EReal) (x1 x2 : S2x1600000.Idx → BitVec 32) (x3 : S64x64.Idx → EReal) (x4 : S64.Idx → EReal)
    (x5 x6 : S64x64.Idx → EReal) (x7 : S64.Idx → EReal) (x8 : S64x64.Idx → EReal) (p : Fin 50000) (q : Fin 64) :
    val_main_v58 (F := Ideal) x0 x1 x2 x3 x4 x5 x6 x7 x8 (ix2 p q)
      = denseRow (fun k => val_main_v43 (F := Ideal) x0 x1 x2 x3 x4 x5 (ix2 p k)) (val_main_v47 (F := Ideal) x2 (ix1 p))
          (fun k => val_main_v29 (F := Ideal) x0 x1 x3 x4 x5 (ix2 p k)) (fun k q => x6 (ix2 k q)) (fun k q => x8 (ix2 k q))
          (fun q => x7 (ix1 q)) q := by
  rw [val_main_v58_apply, val_main_v56_apply, val_main_v53_apply, val_main_v57_apply, val_main_v55_apply, val_main_v54_apply]
  refine Eq.trans ?_ (denseRow_regroup _ _ _ _ _ _ _)
  refine congrArg₂ (· + ·) (congrArg₂ (· + ·) (Finset.sum_congr rfl fun k _ => ?_) ?_) (Finset.sum_congr rfl fun k _ => ?_)
  · have e1 : lidx_main_v53 (ix2 p q) k = ix2 p k := funext fun a => by match a with | ⟨0, _⟩ => rfl | ⟨1, _⟩ => rfl
    have e2 : ridx_main_v53 (ix2 p q) k = ix2 k q := funext fun a => by match a with | ⟨0, _⟩ => rfl | ⟨1, _⟩ => rfl
    have e3 : idx_main_v50 (idx_main_v51 (ix2 p k)) = ix1 p := funext fun a => by match a with | ⟨0, _⟩ => rfl
    rw [e1, e2, val_main_v52_apply, val_main_v51_apply, val_main_v50_apply, val_main_v49_apply, val_main_v48_apply,
      val_main_cst_9_apply, e3]
    rfl
  · exact congrArg x7 (funext fun a => by match a with | ⟨0, _⟩ => rfl)
  · have e1 : lidx_main_v57 (ix2 p q) k = ix2 p k := funext fun a => by match a with | ⟨0, _⟩ => rfl | ⟨1, _⟩ => rfl
    have e2 : ridx_main_v57 (ix2 p q) k = ix2 k q := funext fun a => by match a with | ⟨0, _⟩ => rfl | ⟨1, _⟩ => rfl
    rw [e1, e2]

/-- The host's result — the second dense part divided by its rows' clamped Euclidean lengths — is the specification's
    second layer of the second layer's neighbour sums and counts and the hidden features. The host's sum of squares starts
    from the float zero, which is the real zero. -/
theorem output_eq (x0 : S50000x64.Idx → EReal) (x1 x2 : S2x1600000.Idx → BitVec 32) (x3 : S64x64.Idx → EReal) (x4 : S64.Idx → EReal)
    (x5 x6 : S64x64.Idx → EReal) (x7 : S64.Idx → EReal) (x8 : S64x64.Idx → EReal) :
    val_main_v63 (F := Ideal) x0 x1 x2 x3 x4 x5 x6 x7 x8
      = output (val_main_v43 (F := Ideal) x0 x1 x2 x3 x4 x5) (val_main_v47 (F := Ideal) x2)
          (val_main_v29 (F := Ideal) x0 x1 x3 x4 x5) x6 x8 x7 := by
  funext i
  obtain ⟨p, q, rfl⟩ : ∃ (p : Fin 50000) (q : Fin 64), i = ix2 p q := ⟨i 0, i 1, eq_ix2 i⟩
  rw [val_main_v63_apply, val_main_v62_apply, val_main_v61_apply, val_main_v59_apply, val_main_call1_v2_apply,
    val_main_call1_v1_apply, val_main_v60_apply, val_main_cst_10_apply, val_main_call1_cst_apply]
  have hsq : ∀ k : Fin 64, val_main_call1_v0 (F := Ideal) x0 x1 x2 x3 x4 x5 x6 x7 x8
        (idx_main_call1_v1 (idx_main_call1_v2 (idx_main_v62 (ix2 p q))) k)
      = val_main_v58 (F := Ideal) x0 x1 x2 x3 x4 x5 x6 x7 x8 (ix2 p k) * val_main_v58 (F := Ideal) x0 x1 x2 x3 x4 x5 x6 x7 x8 (ix2 p k) := by
    intro k
    have e : idx_main_call1_v1 (idx_main_call1_v2 (idx_main_v62 (ix2 p q))) k = ix2 p k :=
      funext fun a => by match a with | ⟨0, _⟩ => rfl | ⟨1, _⟩ => rfl
    rw [e, val_main_call1_v0_apply]
    rfl
  rw [output_at, Finset.sum_congr rfl fun k _ => hsq k]
  simp only [dense2_at]
  rw [Ideal.hostDivf_def, Ideal.maximumf_def, Ideal.hostUnary_sqrt_def, Ideal.ofBits_def, Ideal.ofBits_def]
  unfold unitRow
  refine congrArg₂ Ideal.div rfl (congrArg₂ max (congrArg Ideal.sqrt ?_) rfl)
  exact (congrArg (fun z : EReal => z + _) Ideal.ofBits_zero_f32).trans (zero_add _)

/-- THE WHOLE COMPUTATION as one function of the nine arguments: the second layer of the second edge list's neighbour
    sums and counts of the hidden features, the hidden features being the first layer of the first edge list's neighbour
    sums and counts of the node features. -/
def model (x : S50000x64.Idx → EReal) (e1 e2 : S2x1600000.Idx → BitVec 32) (W1 : S64x64.Idx → EReal) (b1 : S64.Idx → EReal)
    (R1 W2 : S64x64.Idx → EReal) (b2 : S64.Idx → EReal) (R2 : S64x64.Idx → EReal) : S50000x64.Idx → EReal :=
  output (neighbourSum (hidden (neighbourSum x e1) (neighbourCount e1) x W1 R1 b1) e2) (neighbourCount e2)
    (hidden (neighbourSum x e1) (neighbourCount e1) x W1 R1 b1) W2 R2 b2

/-- The host program's result is the model of its arguments. -/
theorem result_eq (x0 : S50000x64.Idx → EReal) (x1 x2 : S2x1600000.Idx → BitVec 32) (x3 : S64x64.Idx → EReal) (x4 : S64.Idx → EReal)
    (x5 x6 : S64x64.Idx → EReal) (x7 : S64.Idx → EReal) (x8 : S64x64.Idx → EReal) :
    val_main_v63 (F := Ideal) x0 x1 x2 x3 x4 x5 x6 x7 x8 = model x0 x1 x2 x3 x4 x5 x6 x7 x8 := by
  rw [output_eq, sums2_eq, counts2_eq, hidden_eq]
  rfl

end Cert.Sage.Ref

end
-- ==== Proof.Casts.lean ====
/-
  The kernel's view of the counts and the bias. The host program hands the neighbour counts to the kernel as a 50000 × 1
  matrix and the bias as a 1 × 64 matrix; a recast keeps every entry, so the layers over the recast arrays are the layers
  over the vectors.
-/
import proofs.«136282_j45724221833421_2_alg».proof.Proof.Spec
import proofs.«136282_j45724221833421_2_alg».proof.Proof.LibColumn

noncomputable section

namespace Cert.Sage

open Idealize.ShloMosaic Idealize.ShloMosaic.ValueIdx

theorem hiddenK_cast (agg : (⟨2, ![50000, 64]⟩ : Shape).Idx → EReal) (deg : (⟨1, ![50000]⟩ : Shape).Idx → EReal)
    (x : (⟨2, ![50000, 64]⟩ : Shape).Idx → EReal) (W : (⟨2, ![64, 64]⟩ : Shape).Idx → EReal)
    (b : (⟨1, ![64]⟩ : Shape).Idx → EReal) (R : (⟨2, ![64, 64]⟩ : Shape).Idx → EReal)
    (h : (⟨1, ![50000]⟩ : Shape).ShapeCasts ⟨2, ![50000, 1]⟩) (h' : (⟨1, ![64]⟩ : Shape).ShapeCasts ⟨2, ![1, 64]⟩) :
    hiddenK agg (shapeCast ⟨2, ![50000, 1]⟩ deg h) x W (shapeCast ⟨2, ![1, 64]⟩ b h') R = hidden agg deg x W R b := by
  funext i
  obtain ⟨p, q, rfl⟩ : ∃ (p : Fin 50000) (q : Fin 64), i = ix2 p q := ⟨i 0, i 1, eq_ix2 i⟩
  rw [hiddenK_at, hidden_at, shapeCast_a_a1_apply]
  simp only [shapeCast_a_1a_apply]

theorem outputK_cast (agg : (⟨2, ![50000, 64]⟩ : Shape).Idx → EReal) (deg : (⟨1, ![50000]⟩ : Shape).Idx → EReal)
    (x : (⟨2, ![50000, 64]⟩ : Shape).Idx → EReal) (W : (⟨2, ![64, 64]⟩ : Shape).Idx → EReal)
    (b : (⟨1, ![64]⟩ : Shape).Idx → EReal) (R : (⟨2, ![64, 64]⟩ : Shape).Idx → EReal)
    (h : (⟨1, ![50000]⟩ : Shape).ShapeCasts ⟨2, ![50000, 1]⟩) (h' : (⟨1, ![64]⟩ : Shape).ShapeCasts ⟨2, ![1, 64]⟩) :
    outputK agg (shapeCast ⟨2, ![50000, 1]⟩ deg h) x W (shapeCast ⟨2, ![1, 64]⟩ b h') R = output agg deg x W R b := by
  funext i
  obtain ⟨p, q, rfl⟩ : ∃ (p : Fin 50000) (q : Fin 64), i = ix2 p q := ⟨i 0, i 1, eq_ix2 i⟩
  rw [outputK_at, output_at, shapeCast_a_a1_apply]
  simp only [shapeCast_a_1a_apply]

end Cert.Sage

end
-- ==== Proof.HostFold.lean ====
/-
  The contents of the kernel program's arrays at each boundary, read back to the arguments.

  Before the first call the host operations compute the neighbour sums and counts of the node features along the first
  edge list and recast the counts and the first bias; the first call leaves the hidden features; the host operations
  between the calls compute the neighbour sums and counts of the hidden features along the second edge list and recast
  the counts and the second bias; the second call leaves the result. The gathers and scatters are the host program's
  own, applied to the same operands; they are never opened.
-/
import proofs.«136282_j45724221833421_2_alg».proof.Proof.Gen.KernelIdeal.Frame
import proofs.«136282_j45724221833421_2_alg».proof.Proof.Region0
import proofs.«136282_j45724221833421_2_alg».proof.Proof.Region1
import proofs.«136282_j45724221833421_2_alg».proof.Proof.RefValue
import proofs.«136282_j45724221833421_2_alg».proof.Proof.Casts
import Idealize.ShloMosaic.Lib.StableHlo.Run

set_option maxRecDepth 16384

noncomputable section

namespace Cert.Sage.Host

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## Entering the first call -/

theorem entry0_sums (c : Dev nD) : (V1 m ρ c main_v13 : S50000x64.Idx → EReal)
    = Ref.neighbourSum (m ((c : Thread nD τ).loc main_arg0)) (m ((c : Thread nD τ).loc main_arg1)) := by
  dsimp only [V1, W1, hostOps0]
  after_results
  try rfl

theorem entry0_count (c : Dev nD) : (V1 m ρ c main_v18 : S50000x1.Idx → EReal)
    = shapeCast S50000x1 (Ref.neighbourCount (m ((c : Thread nD τ).loc main_arg1))) Facts₀.shapeCasts_S50000_S50000x1 := by
  dsimp only [V1, W1, hostOps0]
  after_results
  try rfl

theorem entry0_feat (c : Dev nD) : V1 m ρ c main_arg0 = m ((c : Thread nD τ).loc main_arg0) := by
  dsimp only [V1, W1, hostOps0]
  after_results
  try rfl

theorem entry0_w (c : Dev nD) : V1 m ρ c main_arg3 = m ((c : Thread nD τ).loc main_arg3) := by
  dsimp only [V1, W1, hostOps0]
  after_results
  try rfl

theorem entry0_bias (c : Dev nD) : (V1 m ρ c main_v19 : S1x64.Idx → EReal)
    = shapeCast S1x64 (m ((c : Thread nD τ).loc main_arg4)) Facts₀.shapeCasts_S64_S1x64 := by
  dsimp only [V1, W1, hostOps0]
  after_results
  try rfl

theorem entry0_r (c : Dev nD) : V1 m ρ c main_arg5 = m ((c : Thread nD τ).loc main_arg5) := by
  dsimp only [V1, W1, hostOps0]
  after_results
  try rfl

/-- The hidden features as the first layer of the arguments. -/
abbrev hiddenOf (c : Dev nD) : S50000x64.Idx → EReal :=
  hidden (Ref.neighbourSum (m ((c : Thread nD τ).loc main_arg0)) (m ((c : Thread nD τ).loc main_arg1)))
    (Ref.neighbourCount (m ((c : Thread nD τ).loc main_arg1))) (m ((c : Thread nD τ).loc main_arg0))
    (m ((c : Thread nD τ).loc main_arg3)) (m ((c : Thread nD τ).loc main_arg5)) (m ((c : Thread nD τ).loc main_arg4))

/-! ## Leaving the first call -/

theorem after0_hidden (c : Dev nD) : (W2 m ρ c (Proc.devRef .tc main_v20) : S50000x64.Idx → EReal) = hiddenOf m c := by
  refine ((W2_arr m ρ c 6).trans (Region0.final (V1 m ρ) c)).trans ?_
  unfold Region0.G
  rw [entry0_sums, entry0_count, entry0_feat, entry0_w, entry0_bias, entry0_r]
  exact hiddenK_cast _ _ _ _ _ _ _ _

/-- An array that neither the first stretch of host operations nor the first call writes holds the argument. -/
theorem after0_edges (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    dsimp only [hostOps0]
    after_results
    try rfl)
theorem after0_w (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    dsimp only [hostOps0]
    after_results
    try rfl)
theorem after0_bias (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    dsimp only [hostOps0]
    after_results
    try rfl)
theorem after0_r (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    dsimp only [hostOps0]
    after_results
    try rfl)

/-! ## Entering the second call -/

set_option maxHeartbeats 2000000 in
theorem entry1_sums (c : Dev nD) : (V3 m ρ c main_v34 : S50000x64.Idx → EReal)
    = Ref.neighbourSum (W2 m ρ c (Proc.devRef .tc main_v20)) (W2 m ρ c (Proc.devRef .tc main_arg2)) := by
  dsimp only [V3, W3, hostOps1]
  after_results
  try rfl

theorem entry1_count (c : Dev nD) : (V3 m ρ c main_v39 : S50000x1.Idx → EReal)
    = shapeCast S50000x1 (Ref.neighbourCount (W2 m ρ c (Proc.devRef .tc main_arg2))) Facts₀.shapeCasts_S50000_S50000x1 := by
  dsimp only [V3, W3, hostOps1]
  after_results
  try rfl

theorem entry1_feat (c : Dev nD) : V3 m ρ c main_v20 = W2 m ρ c (Proc.devRef .tc main_v20) := by
  dsimp only [V3, W3, hostOps1]
  after_results
  try rfl

theorem entry1_w (c : Dev nD) : V3 m ρ c main_arg6 = W2 m ρ c (Proc.devRef .tc main_arg6) := by
  dsimp only [V3, W3, hostOps1]
  after_results
  try rfl

theorem entry1_bias (c : Dev nD) : (V3 m ρ c main_v40 : S1x64.Idx → EReal)
    = shapeCast S1x64 (W2 m ρ c (Proc.devRef .tc main_arg7)) Facts₀.shapeCasts_S64_S1x64 := by
  dsimp only [V3, W3, hostOps1]
  after_results
  try rfl

theorem entry1_r (c : Dev nD) : V3 m ρ c main_arg8 = W2 m ρ c (Proc.devRef .tc main_arg8) := by
  dsimp only [V3, W3, hostOps1]
  after_results
  try rfl

/-! ## Leaving the second call -/

/-- THE KERNEL PROGRAM'S RESULT: the model of the arguments. -/
theorem result_eq (c : Dev nD) : (W4 m ρ c (Proc.devRef .tc main_v41) : S50000x64.Idx → EReal)
    = Ref.model (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine ((W4_arr m ρ c 6).trans (Region1.final (V3 m ρ) c)).trans ?_
  unfold Region1.G
  rw [entry1_sums, entry1_count, entry1_feat, entry1_w, entry1_bias, entry1_r, after0_hidden, after0_edges, after0_w, after0_bias,
    after0_r]
  exact outputK_cast _ _ _ _ _ _ _ _

end Cert.Sage.Host

end
-- ==== Proof.lean ====
/-
  Two layers of GraphSAGE message passing on a graph of 50000 nodes with 64 features: the kernel program against its host
  reference, on the extended reals.

  Each layer takes, for every node, the sum of the feature rows of the sources of its incoming edges (a gather of rows
  scattered-and-added at the targets) and the number of incoming edges, divides the sum by the number clamped at 1,
  and computes (mean · W + own features · R) + bias. The first layer clamps the result at zero; the second divides each
  row by its Euclidean length clamped at ε. The kernel program does the gathers and scatters with the host's own
  operations and the dense part in two calls of one body over blocks of 5000 nodes, rounding the factors of its products
  to bfloat16 first — which is the identity on the extended reals — and adding the bias after the root branch where the
  host adds it before: a regrouping of a sum of three terms. No fact about the inputs being finite is used: the only laws
  are commutativity and associativity of addition, which hold with infinities.

  The pieces: the layers as plain functions (Spec); a block of the body read at an entry (BlockRow); each call's result
  array as one function of the arrays the call is entered with (Region0, Region1); the arrays at each boundary of the
  kernel program read back to the arguments (HostFold) under the run that names the result (KernelRun); the host
  program stage by stage (RefValue).
-/
import proofs.«136282_j45724221833421_2_alg».proof.Defs
import proofs.«136282_j45724221833421_2_alg».proof.Proof.Gen.Kernel
import proofs.«136282_j45724221833421_2_alg».proof.Proof.Gen.Kernel.Skeleton
import proofs.«136282_j45724221833421_2_alg».proof.Proof.Gen.Kernel.Launch
import proofs.«136282_j45724221833421_2_alg».proof.Proof.Gen.Kernel.Points
import proofs.«136282_j45724221833421_2_alg».proof.Proof.Gen.Kernel.Frame
import proofs.«136282_j45724221833421_2_alg».proof.Proof.Gen.KernelIdeal
import proofs.«136282_j45724221833421_2_alg».proof.Proof.Gen.KernelIdeal.Skeleton
import proofs.«136282_j45724221833421_2_alg».proof.Proof.Gen.KernelIdeal.Launch
import proofs.«136282_j45724221833421_2_alg».proof.Proof.Gen.KernelIdeal.Points
import proofs.«136282_j45724221833421_2_alg».proof.Proof.Gen.KernelIdeal.Frame
import proofs.«136282_j45724221833421_2_alg».proof.Proof.Gen.ReferenceIdeal
import proofs.«136282_j45724221833421_2_alg».proof.Proof.Gen.Pre_finite_inputs
import proofs.«136282_j45724221833421_2_alg».proof.Proof.Gen.ReferenceIdeal.Run
import proofs.«136282_j45724221833421_2_alg».proof.Proof.Gen.ReferenceIdeal.Read
import proofs.«136282_j45724221833421_2_alg».proof.Proof.KernelRun
import proofs.«136282_j45724221833421_2_alg».proof.Proof.HostFold
import Idealize.ShloMosaic.Adequacy
import Idealize.ShloMosaic.Init

noncomputable section

namespace Cert.Proof

open Idealize.ShloMosaic Idealize.SL.Sem

/-- The kernel program as printed runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts)
    (hPre_finite_inputs := Cert.Pre_finite_inputs.Gen.facts) :=
  fun m ρ _ => Cert.KernelIdeal.Gen.frame m ρ

/-- The host reference runs and leaves its arguments as launched: its run with the result dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the nine arguments both programs end with the model of the arguments in their result
    arrays: the kernel program by its named run and the boundary contents read back, the host program by its run read
    stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Sage.Ref.model
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Sage.Host.result_eq m ρ c), (h c).2⟩) (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v63_eq, Cert.Sage.Ref.result_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
